-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S4096x12288 : Shape := ⟨2, ![4096, 12288]⟩
abbrev S64x12288 : Shape := ⟨2, ![64, 12288]⟩
abbrev S12288 : Shape := ⟨1, ![12288]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S64x12288 : S_.BroadcastsInDim S64x12288 (![] : Fin 0 → Fin S64x12288.rank)
  reducesTo_S64x12288_S_d0_1 : S64x12288.ReducesTo [0, 1] S_
  bcast_S_S12288 : S_.BroadcastsInDim S12288 (![] : Fin 0 → Fin S12288.rank)
  reducesTo_S12288_S_d0 : S12288.ReducesTo [0] S_

variable [Facts]

def fn_part1 {F : FTy → Type} [FloatOps F] (main_v13 : IVec S_ 1) (main_v16 : IVec S12288 1) : IVec S_ 1 :=
  let main_c_5 : IVec S_ 1 := constantI S_ 1 1#1
  let main_v17 : IVec S_ 1 := (fun x v => Host.reduce IntOp.andi x v reducesTo_S12288_S_d0 h_S_) main_v16 main_c_5
  let main_v18 : IVec S_ 1 := andi main_v13 main_v17
  main_v18

def fn {F : FTy → Type} [FloatOps F] (main_arg0 : FVec F S4096x4096 .f32) (main_arg1 : IVec S4096x12288 32) (main_arg2 : FVec F S64x12288 .f32) (main_arg3 : FVec F S64x12288 .f32) (main_arg4 : FVec F S12288 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S64x12288 .f32 := Host.absf main_arg2
  let main_cst_0 : FVec F S_ .f32 := constant S_ .f32 0x7F800000#32
  let main_v5 : FVec F S64x12288 .f32 := broadcastInDim S64x12288 ![] bcast_S_S64x12288 main_cst_0
  let main_v6 : IVec S64x12288 1 := cmpf .olt main_v4 main_v5
  let main_c_1 : IVec S_ 1 := constantI S_ 1 1#1
  let main_v7 : IVec S_ 1 := (fun x v => Host.reduce IntOp.andi x v reducesTo_S64x12288_S_d0_1 h_S_) main_v6 main_c_1
  let main_v8 : IVec S_ 1 := andi main_v3 main_v7
  let main_v9 : FVec F S64x12288 .f32 := Host.absf main_arg3
  let main_cst_2 : FVec F S_ .f32 := constant S_ .f32 0x7F800000#32
  let main_v10 : FVec F S64x12288 .f32 := broadcastInDim S64x12288 ![] bcast_S_S64x12288 main_cst_2
  let main_v11 : IVec S64x12288 1 := cmpf .olt main_v9 main_v10
  let main_c_3 : IVec S_ 1 := constantI S_ 1 1#1
  let main_v12 : IVec S_ 1 := (fun x v => Host.reduce IntOp.andi x v reducesTo_S64x12288_S_d0_1 h_S_) main_v11 main_c_3
  let main_v13 : IVec S_ 1 := andi main_v8 main_v12
  let main_v14 : FVec F S12288 .f32 := Host.absf main_arg4
  let main_cst_4 : FVec F S_ .f32 := constant S_ .f32 0x7F800000#32
  let main_v15 : FVec F S12288 .f32 := broadcastInDim S12288 ![] bcast_S_S12288 main_cst_4
  let main_v16 : IVec S12288 1 := cmpf .olt main_v14 main_v15
  fn_part1 (F := F) main_v13 main_v16
-- ==== Kernel.lean ====
abbrev S4096x4096 : Shape := ⟨2, ![4096, 4096]⟩
abbrev S4096x12288 : Shape := ⟨2, ![4096, 12288]⟩
abbrev S64x12288 : Shape := ⟨2, ![64, 12288]⟩
abbrev S12288 : Shape := ⟨1, ![12288]⟩
abbrev S1x12288 : Shape := ⟨2, ![1, 12288]⟩
abbrev S1024x512 : Shape := ⟨2, ![1024, 512]⟩
abbrev S512x1024 : Shape := ⟨2, ![512, 1024]⟩
abbrev S8x1024 : Shape := ⟨2, ![8, 1024]⟩
abbrev S1x1024 : Shape := ⟨2, ![1, 1024]⟩
abbrev S1024x1024 : Shape := ⟨2, ![1024, 1024]⟩
abbrev S8x1x1024 : Shape := ⟨3, ![8, 1, 1024]⟩
abbrev S8x64x1024 : Shape := ⟨3, ![8, 64, 1024]⟩

abbrev nBuf : Space → Nat
  | .hbm => 7
  | .vmem => 13
  | .smem => 0
  | _ => 0

abbrev bufTy : (tb : Table) → Fin (tcTables nBuf tb) → BufTy
  | .hbm, ⟨0, _⟩ => ⟨S4096x4096, .f32⟩
  | .hbm, ⟨1, _⟩ => ⟨S4096x12288, .i32⟩
  | .hbm, ⟨2, _⟩ => ⟨S64x12288, .f32⟩
  | .hbm, ⟨3, _⟩ => ⟨S64x12288, .f32⟩
  | .hbm, ⟨4, _⟩ => ⟨S12288, .f32⟩
  | .hbm, ⟨5, _⟩ => ⟨S1x12288, .f32⟩
  | .hbm, ⟨6, _⟩ => ⟨S4096x12288, .f32⟩
  | .local _ .vmem, ⟨0, _⟩ => ⟨S1024x512, .f32⟩
  | .local _ .vmem, ⟨1, _⟩ => ⟨S1024x512, .f32⟩
  | .local _ .vmem, ⟨2, _⟩ => ⟨S512x1024, .i32⟩
  | .local _ .vmem, ⟨3, _⟩ => ⟨S512x1024, .i32⟩
  | .local _ .vmem, ⟨4, _⟩ => ⟨S8x1024, .f32⟩
  | .local _ .vmem, ⟨5, _⟩ => ⟨S8x1024, .f32⟩
  | .local _ .vmem, ⟨6, _⟩ => ⟨S8x1024, .f32⟩
  | .local _ .vmem, ⟨7, _⟩ => ⟨S8x1024, .f32⟩
  | .local _ .vmem, ⟨8, _⟩ => ⟨S1x1024, .f32⟩
  | .local _ .vmem, ⟨9, _⟩ => ⟨S1x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 12, 8], ![false, false, false]⟩

def k0_cond2 (i : grid0.Coords) : BitVec 1 :=
  let arg2 : BitVec 32 := BitVec.ofNat 32 (i 2).val
  let c7_i32 : BitVec 32 := 7#32
  let v26 : BitVec 1 := Scalar.cmpi .eq arg2 c7_i32
  let v27 : BitVec 32 := Scalar.extui v26
  let c0_i32_12 : BitVec 32 := 0#32
  let v28 : BitVec 1 := Scalar.cmpi .ne v27 c0_i32_12
  v28

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

class Facts₀ : Prop where
  shapeCasts_S12288_S1x12288 : S12288.ShapeCasts S1x12288
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S512x1024_S512x1024_0_0 : ∀ a, (![0, 0] : Fin 2 → Nat) a + S512x1024.size a ≤ S512x1024.size a
  h_S512x1024 : 0 < S512x1024.numel
  inb_S8x1024_S8x1024_0_0 : ∀ a, (![0, 0] : Fin 2 → Nat) a + S8x1024.size a ≤ S8x1024.size a
  h_S8x1024 : 0 < S8x1024.numel
  shapeCasts_S8x1024_S8x1x1024 : S8x1024.ShapeCasts S8x1x1024
  shapeCasts_S8x1x1024_S8x1x1024 : S8x1x1024.ShapeCasts S8x1x1024
  broadcasts_S8x1x1024_S8x64x1024 : S8x1x1024.Broadcasts S8x64x1024
  shapeCasts_S8x64x1024_S512x1024 : S8x64x1024.ShapeCasts S512x1024
  bitsLt_bf16_f32 : FTy.bits .bf16 < FTy.bits .f32
  inb_S1024x512_S1024x512_0_0 : ∀ a, (![0, 0] : Fin 2 → Nat) a + S1024x512.size a ≤ S1024x512.size a
  h_S1024x512 : 0 < S1024x512.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  dot_S1024x512_S512x1024_S1024x1024_1_0_0_1_n_n_wf : DotDims.WF S1024x512 S512x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S4096x4096.size a
  hwx0_0 : ∀ i : grid0.Coords, EltTy.bits .f32 = 32 ∨ (Rect.block (s := S4096x4096) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S4096x12288.size a
  hwx0_1 : ∀ i : grid0.Coords, EltTy.bits .i32 = 32 ∨ (Rect.block (s := S4096x12288) S512x1024.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x1024.size a ≤ S64x12288.size a
  hwx0_2 : ∀ i : grid0.Coords, EltTy.bits .f32 = 32 ∨ (Rect.block (s := S64x12288) S8x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x1024.size a ≤ S64x12288.size a
  hwx0_3 : ∀ i : grid0.Coords, EltTy.bits .f32 = 32 ∨ (Rect.block (s := S64x12288) S8x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x12288.size a
  hwx0_4 : ∀ i : grid0.Coords, EltTy.bits .f32 = 32 ∨ (Rect.block (s := S1x12288) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S4096x12288.size a
  hwx0_5 : ∀ i : grid0.Coords, EltTy.bits .f32 = 32 ∨ (Rect.block (s := S4096x12288) S1024x1024.size (cc0_transform_5 i) (hinb0_5 i)).WholeWords (EltTy.packing .f32)

variable [Facts₀]

def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S8x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S8x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1024x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S4096x4096 : Shape := ⟨2, ![4096, 4096]⟩
abbrev S4096x12288 : Shape := ⟨2, ![4096, 12288]⟩
abbrev S64x12288 : Shape := ⟨2, ![64, 12288]⟩
abbrev S12288 : Shape := ⟨1, ![12288]⟩
abbrev S64x64x12288 : Shape := ⟨3, ![64, 64, 12288]⟩
abbrev S64x1x12288 : Shape := ⟨3, ![64, 1, 12288]⟩
abbrev S1x12288 : Shape := ⟨2, ![1, 12288]⟩

abbrev nBuf : Space → Nat
  | .hbm => 18
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x12288, .i32⟩
  | .hbm, ⟨2, _⟩ => ⟨S64x12288, .f32⟩
  | .hbm, ⟨3, _⟩ => ⟨S64x12288, .f32⟩
  | .hbm, ⟨4, _⟩ => ⟨S12288, .f32⟩
  | .hbm, ⟨5, _⟩ => ⟨S4096x12288, .f32⟩
  | .hbm, ⟨6, _⟩ => ⟨S64x64x12288, .f32⟩
  | .hbm, ⟨7, _⟩ => ⟨S64x1x12288, .f32⟩
  | .hbm, ⟨8, _⟩ => ⟨S64x64x12288, .f32⟩
  | .hbm, ⟨9, _⟩ => ⟨S64x64x12288, .f32⟩
  | .hbm, ⟨10, _⟩ => ⟨S64x1x12288, .f32⟩
  | .hbm, ⟨11, _⟩ => ⟨S64x64x12288, .f32⟩
  | .hbm, ⟨12, _⟩ => ⟨S64x64x12288, .f32⟩
  | .hbm, ⟨13, _⟩ => ⟨S4096x12288, .f32⟩
  | .hbm, ⟨14, _⟩ => ⟨S4096x12288, .f32⟩
  | .hbm, ⟨15, _⟩ => ⟨S1x12288, .f32⟩
  | .hbm, ⟨16, _⟩ => ⟨S4096x12288, .f32⟩
  | .hbm, ⟨17, _⟩ => ⟨S4096x12288, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]

class Facts₀ : Prop where
  shapeCasts_S4096x12288_S64x64x12288 : S4096x12288.ShapeCasts S64x64x12288
  bcast_S64x12288_S64x1x12288_0_2 : S64x12288.BroadcastsInDim S64x1x12288 (![0, 2] : Fin 2 → Fin S64x1x12288.rank)
  bcast_S64x1x12288_S64x64x12288_0_1_2 : S64x1x12288.BroadcastsInDim S64x64x12288 (![0, 1, 2] : Fin 3 → Fin S64x64x12288.rank)
  shapeCasts_S64x64x12288_S4096x12288 : S64x64x12288.ShapeCasts S4096x12288
  bcast_S12288_S1x12288_1 : S12288.BroadcastsInDim S1x12288 (![1] : Fin 1 → Fin S1x12288.rank)
  bcast_S1x12288_S4096x12288_0_1 : S1x12288.BroadcastsInDim S4096x12288 (![0, 1] : Fin 2 → Fin S4096x12288.rank)
  dot_S4096x4096_S4096x12288_S4096x12288_1_0_0_1_n_n_wf : DotDims.WF S4096x4096 S4096x12288 S4096x12288 [1] [0] [0] [1] [] []

variable [Facts₀]

def dot_S4096x4096_S4096x12288_S4096x12288_1_0_0_1_n_n : DotDims S4096x4096 S4096x12288 S4096x12288 where
  lhsContracting := [1]
  rhsContracting := [0]
  lhsNonContracting := [0]
  rhsNonContracting := [1]
  lhsBatch := []
  rhsBatch := []
  wf := dot_S4096x4096_S4096x12288_S4096x12288_1_0_0_1_n_n_wf

class Facts : Prop extends Facts₀ where

variable [Facts]
-- ==== Proof.LibERealSums.lean ====
/-
  General facts about finite sums and maxima of real numbers read inside the extended reals, and the
  splitting of a sum over `Fin (m * n)` into `m` consecutive blocks of `n` terms.
-/
import Mathlib.Data.EReal.Operations
import Mathlib.Algebra.BigOperators.Fin
import Mathlib.Data.Finset.Fold
import Mathlib.Logic.Equiv.Fin.Basic

namespace Cert.LibERealSums

open Finset

/-- The coercion of a finite sum of reals is the sum of the coercions: every partial sum is finite, so
    no infinity is ever met. -/
theorem coe_finset_sum {ι : Type*} (s : Finset ι) (f : ι → ℝ) :
    ((∑ i ∈ s, f i : ℝ) : EReal) = ∑ i ∈ s, (f i : EReal) := by
  classical
  induction s using Finset.induction_on with
  | empty => rw [Finset.sum_empty, Finset.sum_empty, EReal.coe_zero]
  | insert a s ha ih => rw [Finset.sum_insert ha, Finset.sum_insert ha, EReal.coe_add, ih]

/-- A sum of extended reals each of which is (the coercion of) a real is the coercion of the real sum. -/
theorem sum_eq_coe {ι : Type*} (s : Finset ι) (g : ι → EReal) (f : ι → ℝ) (h : ∀ i ∈ s, g i = (f i : EReal)) :
    ∑ i ∈ s, g i = ((∑ i ∈ s, f i : ℝ) : EReal) := by
  rw [coe_finset_sum]
  exact Finset.sum_congr rfl h

/-- The maximum of a nonempty finite family of reals, folded from minus infinity inside the extended
    reals, is a real: it is at least one member of the family, hence not `⊥`, and every member and the
    start value are below `⊤`, hence it is not `⊤`. -/
theorem fold_max_bot_coe {ι : Type*} (s : Finset ι) (hs : s.Nonempty) (f : ι → ℝ) :
    ∃ m : ℝ, s.fold max (⊥ : EReal) (fun i => (f i : EReal)) = (m : EReal) := by
  obtain ⟨i₀, hi₀⟩ := hs
  have hlt : s.fold max (⊥ : EReal) (fun i => (f i : EReal)) < ⊤ :=
    (Finset.fold_max_lt _).mpr ⟨bot_lt_top, fun x _ => EReal.coe_lt_top (f x)⟩
  have hge : ((f i₀ : ℝ) : EReal) ≤ s.fold max (⊥ : EReal) (fun i => (f i : EReal)) :=
    (Finset.le_fold_max _).mpr (Or.inr ⟨i₀, hi₀, le_refl _⟩)
  have hne_bot : s.fold max (⊥ : EReal) (fun i => (f i : EReal)) ≠ ⊥ :=
    ne_of_gt (lt_of_lt_of_le (EReal.bot_lt_coe (f i₀)) hge)
  exact ⟨_, (EReal.coe_toReal (ne_of_lt hlt) hne_bot).symm⟩

/-- A sum over `Fin N`, with `N = m * n`, is the sum over the `m` blocks of `n` consecutive indices:
    `row k r` is the index `n * k + r`. -/
theorem sum_fin_blocks {M : Type*} [AddCommMonoid M] {m n N : ℕ} (hN : m * n = N)
    (row : Fin m → Fin n → Fin N) (hrow : ∀ k r, (row k r).val = n * k.val + r.val) (f : Fin N → M) :
    ∑ c : Fin N, f c = ∑ k : Fin m, ∑ r : Fin n, f (row k r) := by
  subst hN
  rw [← Equiv.sum_comp finProdFinEquiv f, Fintype.sum_prod_type]
  refine Finset.sum_congr rfl fun k _ => Finset.sum_congr rfl fun r _ => ?_
  refine congrArg f (Fin.ext ?_)
  rw [hrow k r]
  exact Nat.add_comm _ _

end Cert.LibERealSums
-- ==== Proof.DequantProduct.lean ====
/-
  The function both programs compute, over the extended reals.

  A weight matrix is stored as small integers `q[p, n]` with one scale and one zero point per group of 64
  consecutive rows: `w[p, n] = q[p, n] · s[p / 64, n] + z[p / 64, n]`. The result is the matrix product of the
  activations with these weights plus a bias row, `out[r, n] = (∑ p, x[r, p] · w[p, n]) + b[n]`.

  The contraction over the 4096 rows `p` can be cut into 8 consecutive tiles of 512 rows. Addition of extended
  reals is commutative and associative, so the sum of the 8 tile sums is the whole sum (`sum_tiles`); no
  finiteness of the entries is used.
-/
import Idealize.ShloMosaic.PureOps.Ideal
import Idealize.ShloMosaic.Lib.ValueIdx
import proofs.«154683_j68676527063117_1_alg».proof.Proof.LibERealSums

noncomputable section

namespace Cert.DequantProduct

open Idealize.ShloMosaic Idealize.ShloMosaic.ValueIdx

/-- The quantization group of weight row `p`: 64 consecutive rows share one scale and one zero point. -/
def grp (p : Fin 4096) : Fin 64 := ⟨p.val / 64, by have := p.isLt; omega⟩

/-- The dequantized weight at row `p`, column `n`: the integer code times its group's scale plus its group's
    zero point. -/
def weight (q : (⟨2, ![4096, 12288]⟩ : Shape).Idx → BitVec 32) (s z : (⟨2, ![64, 12288]⟩ : Shape).Idx → EReal)
    (p : Fin 4096) (n : Fin 12288) : EReal :=
  FloatOps.sitofp (F := Ideal) FTy.f32 (q (ix2 p n)) * s (ix2 (grp p) n) + z (ix2 (grp p) n)

/-- The result: activations times dequantized weights, plus the bias of the column. -/
def out (x : (⟨2, ![4096, 4096]⟩ : Shape).Idx → EReal) (q : (⟨2, ![4096, 12288]⟩ : Shape).Idx → BitVec 32)
    (s z : (⟨2, ![64, 12288]⟩ : Shape).Idx → EReal) (b : (⟨1, ![12288]⟩ : Shape).Idx → EReal) :
    (⟨2, ![4096, 12288]⟩ : Shape).Idx → EReal :=
  fun i => (∑ p : Fin 4096, x (ix2 (i 0) p) * weight q s z p (i 1)) + b (ix1 (i 1))

/-- Row `l` of contraction tile `k` (512 rows per tile), as a row of the whole matrix. For `k < 8` this is row
    `512 k + l`; the remainder only makes the definition total. -/
def tileRow (k : ℕ) (l : Fin 512) : Fin 4096 := ⟨(512 * k + l.val) % 4096, Nat.mod_lt _ (by norm_num)⟩

theorem tileRow_val (k : ℕ) (hk : k < 8) (l : Fin 512) : (tileRow k l).val = 512 * k + l.val := by
  have := l.isLt
  show (512 * k + l.val) % 4096 = 512 * k + l.val
  omega

/-- The part of entry `(r, n)`'s contraction that lies in tile `k`. -/
def tileTerm (x : (⟨2, ![4096, 4096]⟩ : Shape).Idx → EReal) (q : (⟨2, ![4096, 12288]⟩ : Shape).Idx → BitVec 32)
    (s z : (⟨2, ![64, 12288]⟩ : Shape).Idx → EReal) (r : Fin 4096) (n : Fin 12288) (k : ℕ) : EReal :=
  ∑ l : Fin 512, x (ix2 r (tileRow k l)) * weight q s z (tileRow k l) n

/-- The eight tile sums add up to the whole contraction. -/
theorem sum_tiles (x : (⟨2, ![4096, 4096]⟩ : Shape).Idx → EReal) (q : (⟨2, ![4096, 12288]⟩ : Shape).Idx → BitVec 32)
    (s z : (⟨2, ![64, 12288]⟩ : Shape).Idx → EReal) (r : Fin 4096) (n : Fin 12288) :
    ∑ k ∈ Finset.range 8, tileTerm x q s z r n k = ∑ p : Fin 4096, x (ix2 r p) * weight q s z p n := by
  rw [Finset.sum_range]
  exact (Cert.LibERealSums.sum_fin_blocks (m := 8) (n := 512) (by norm_num) (fun k l => tileRow k.val l)
    (fun k l => tileRow_val k.val k.isLt l) (fun p => x (ix2 r p) * weight q s z p n)).symm

end Cert.DequantProduct

end
-- ==== Proof.LibPlainMatmul.lean ====
/-
  A plain matrix product read at an entry, over the extended reals.

  For dimension numbers that contract the left operand's columns with the right operand's rows and have
  no batch axes (`[1] × [0]`, free axes `[0]` and `[1]`), an `M × K` by `K × N` product accumulated into
  the zero matrix is, at entry `(a, b)`, the sum over `k` of `l (a, k) · r (k, b)`. The statement takes
  the dimension-number record as a variable with its six lists given by hypotheses, so it applies to any
  printed record of this form, whatever its name and extents.
-/
import Idealize.ShloMosaic.PureOps.Ideal.Laws
import Idealize.ShloMosaic.Lib.ValueIdx

noncomputable section

namespace Cert.LibPlainMatmul

open Idealize.ShloMosaic Idealize.ShloMosaic.ValueIdx

variable {M K N : Nat} (D : DotDims ⟨2, ![M, K]⟩ ⟨2, ![K, N]⟩ ⟨2, ![M, N]⟩)

/-- With no batch axes and left free axis `0`, the left operand's row is the result's row. -/
theorem lhs_row (hln : D.lhsNonContracting = [0]) (hlb : D.lhsBatch = [])
    (j : (⟨2, ![M, N]⟩ : Shape).Idx) (q : D.contr.Idx) : (D.lhsIdx j q 0).val = (j 0).val := by
  unfold DotDims.lhsIdx
  rw [dif_neg (by rw [hlb]; exact List.not_mem_nil), dif_pos (by rw [hln]; exact List.mem_singleton.mpr rfl)]
  simp only [Fin.val_cast]
  have key : ∀ (p p' : Nat) (hp : p < (⟨2, ![M, N]⟩ : Shape).rank) (hp' : p' < (⟨2, ![M, N]⟩ : Shape).rank), p = p' →
      (j ⟨p, hp⟩).val = (j ⟨p', hp'⟩).val := fun p p' hp hp' h => by subst h; rfl
  exact key _ _ _ _ (by simp [hlb, hln])

/-- With no batch axes, one left free axis and right free axis `1`, the right operand's column is the result's column. -/
theorem rhs_col (hln : D.lhsNonContracting = [0]) (hrn : D.rhsNonContracting = [1]) (hlb : D.lhsBatch = [])
    (hrb : D.rhsBatch = []) (j : (⟨2, ![M, N]⟩ : Shape).Idx) (q : D.contr.Idx) : (D.rhsIdx j q 1).val = (j 1).val := by
  unfold DotDims.rhsIdx
  rw [dif_neg (by rw [hrb]; exact List.not_mem_nil), dif_pos (by rw [hrn]; exact List.mem_singleton.mpr rfl)]
  simp only [Fin.val_cast]
  have key : ∀ (p p' : Nat) (hp : p < (⟨2, ![M, N]⟩ : Shape).rank) (hp' : p' < (⟨2, ![M, N]⟩ : Shape).rank), p = p' →
      (j ⟨p, hp⟩).val = (j ⟨p', hp'⟩).val := fun p p' hp hp' h => by subst h; rfl
  exact key _ _ _ _ (by simp [hlb, hln, hrn])

/-- The one contracted axis has extent `K`. -/
theorem contr_rank (hlc : D.lhsContracting = [1]) : D.contr.rank = 1 := by rw [D.rank_contr, hlc]; rfl

theorem contr_size (hlc : D.lhsContracting = [1]) :
    D.contr.size ⟨0, by rw [contr_rank D hlc]; exact Nat.one_pos⟩ = K := by
  rw [D.size_contr 0 (by rw [hlc]; exact Nat.one_pos)]
  simp [hlc]

/-- A plain `M × K` by `K × N` product into the zero matrix, at entry `(a, b)`: `∑ k, l (a, k) · r (k, b)`. -/
theorem matmul_zero_apply {φ₁ φ₂ : FTy}
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (l : FVec Ideal ⟨2, ![M, K]⟩ φ₁) (r : FVec Ideal ⟨2, ![K, N]⟩ φ₂)
    (a : Fin M) (b : Fin N) :
    FloatOps.matmul D prec l r (constant (F := Ideal) ⟨2, ![M, N]⟩ .f32 0x00000000#32) (ix2 a b)
      = ∑ k : Fin K, l (ix2 a k) * r (ix2 k b) := by
  rw [Ideal.matmul_constant_zero_apply,
    ← Equiv.sum_comp (contrEquiv1 D K (contr_rank D hlc) (contr_size D hlc)).symm]
  refine Finset.sum_congr rfl fun k _ => ?_
  have hk := contrEquiv1_symm_val D K (contr_rank D hlc) (contr_size D hlc) k
  have el : D.lhsIdx (ix2 a b) ((contrEquiv1 D K (contr_rank D hlc) (contr_size D hlc)).symm k) = ix2 a k :=
    funext fun c => Fin.ext (by
      match c with
      | ⟨0, _⟩ => exact lhs_row D hln hlb _ _
      | ⟨1, _⟩ => exact (D.lhsIdx_val_of_single hlc _ _).trans hk)
  have er : D.rhsIdx (ix2 a b) ((contrEquiv1 D K (contr_rank D hlc) (contr_size D hlc)).symm k) = ix2 k b :=
    funext fun c => Fin.ext (by
      match c with
      | ⟨0, _⟩ => exact (D.rhsIdx_val_of_single hrc _ _).trans hk
      | ⟨1, _⟩ => exact rhs_col D hln hrn hlb hrb _ _)
  rw [el, er]

end Cert.LibPlainMatmul

end
-- ==== Proof.LibOuterSumLayout.lean ====
/-
  The layout operations of an outer (broadcast) sum of two matrices, read at coordinates.

  To form `x[i, k] + y[j, k]` for all `(i, j, k)` a program views `x : [a, c]` as `[a, 1, c]` and `y : [b, c]`
  as `[1, b, c]`, broadcasts both to `[a, b, c]`, and later flattens the two leading axes: `[a, b, c]` as
  `[a·b, c]` (row `i·b + j`) and back. A bias `[c]` viewed as `[1, 1, c]` and broadcast to `[a, b, c]` reads
  its entry `k` everywhere. Each lemma states one of these operations at an index given by coordinates.
-/
import Idealize.ShloMosaic.Lib.Pipeline.Value
import Idealize.ShloMosaic.Lib.ValueIdx

noncomputable section

namespace Cert.LibOuterSumLayout

open Idealize.ShloMosaic Idealize.ShloMosaic.ValueIdx

variable {α : Type}

/-- An `[a, c]` matrix viewed as `[a, 1, c]` reads, at `(i, z, k)`, its entry `(i, k)`. -/
theorem shapeCast_ac_a1c_apply {a c : ℕ} (x : (⟨2, ![a, c]⟩ : Shape).Idx → α)
    (h : (⟨2, ![a, c]⟩ : Shape).ShapeCasts ⟨3, ![a, 1, c]⟩) (i : Fin a) (z : Fin 1) (k : Fin c) :
    shapeCast ⟨3, ![a, 1, c]⟩ x h (ix3 i z k) = x (ix2 i k) :=
  shapeCast_apply x h _ _ (by
    have hz : z.val = 0 := by omega
    rw [Shape.rowMajor_val_three, Shape.rowMajor_val_two]
    show i.val * c + k.val = (i.val * 1 + z.val) * c + k.val
    rw [hz, Nat.mul_one, Nat.add_zero])

/-- An `[a, 1, c]` array broadcast to `[a, b, c]` reads, at `(i, j, k)`, its entry `(i, 0, k)`. -/
theorem broadcastTo_a1c_abc_apply {a b c : ℕ} (x : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ x h (ix3 i j k) = x (ix3 i (0 : Fin 1) k) := by
  refine broadcastTo_apply x h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- A `[1, b, c]` array broadcast to `[a, b, c]` reads, at `(i, j, k)`, its entry `(0, j, k)`. -/
theorem broadcastTo_1bc_abc_apply {a b c : ℕ} (x : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ x h (ix3 i j k) = x (ix3 (0 : Fin 1) j k) := by
  refine broadcastTo_apply x h (ix3 i j k) (ix3 (0 : Fin 1) j k) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl

/-- A `[1, 1, c]` array broadcast to `[a, b, c]` reads, at `(i, j, k)`, its entry `(0, 0, k)`. -/
theorem broadcastTo_11c_abc_apply {a b c : ℕ} (x : (⟨3, ![1, 1, c]⟩ : Shape).Idx → α)
    (h : (⟨3, ![1, 1, c]⟩ : Shape).Broadcasts ⟨3, ![a, b, c]⟩) (i : Fin a) (j : Fin b) (k : Fin c) :
    broadcastTo ⟨3, ![a, b, c]⟩ x h (ix3 i j k) = x (ix3 (0 : Fin 1) (0 : Fin 1) k) := by
  refine broadcastTo_apply x h (ix3 i j k) (ix3 (0 : Fin 1) (0 : Fin 1) k) fun ax => ?_
  match ax with
  | ⟨0, _⟩ => rfl
  | ⟨1, _⟩ => rfl
  | ⟨2, _⟩ =>
    show k.val = if c = 1 then 0 else k.val
    split
    · have := k.isLt; omega
    · rfl

/-- A `[c]` vector viewed as `[1, 1, c]` reads, at `(z, z', k)`, its entry `k`. -/
theorem shapeCast_c_11c_apply {c : ℕ} (x : (⟨1, ![c]⟩ : Shape).Idx → α)
    (h : (⟨1, ![c]⟩ : Shape).ShapeCasts ⟨3, ![1, 1, c]⟩) (z z' : Fin 1) (k : Fin c) :
    shapeCast ⟨3, ![1, 1, c]⟩ x h (ix3 z z' k) = x (ix1 k) :=
  shapeCast_apply x h _ _ (by
    have hz : z.val = 0 := by omega
    have hz' : z'.val = 0 := by omega
    rw [Shape.rowMajor_val_three, Shape.rowMajor_val_one]
    show k.val = (z.val * 1 + z'.val) * c + k.val
    simp only [hz, hz', Nat.zero_mul, Nat.zero_add, Nat.mul_one, Nat.add_zero])

/-- An `[a, b, c]` array with its two leading axes flattened to `n = a·b` rows reads, at row `p = i·b + j`
    and column `k`, its entry `(i, j, k)`. -/
theorem shapeCast_abc_nc_apply {a b c n : ℕ} (x : (⟨3, ![a, b, c]⟩ : Shape).Idx → α)
    (h : (⟨3, ![a, b, c]⟩ : Shape).ShapeCasts ⟨2, ![n, c]⟩) (i : Fin a) (j : Fin b) (k : Fin c) (p : Fin n)
    (hp : p.val = i.val * b + j.val) :
    shapeCast ⟨2, ![n, c]⟩ x h (ix2 p k) = x (ix3 i j k) :=
  shapeCast_apply x h _ _ (by
    rw [Shape.rowMajor_val_three, Shape.rowMajor_val_two]
    show (i.val * b + j.val) * c + k.val = p.val * c + k.val
    rw [hp])

/-- An `[n, c]` matrix with `n = a·b` rows viewed as `[a, b, c]` reads, at `(i, j, k)`, its entry at row
    `p = i·b + j` and column `k`. -/
theorem shapeCast_nc_abc_apply {a b c n : ℕ} (x : (⟨2, ![n, c]⟩ : Shape).Idx → α)
    (h : (⟨2, ![n, c]⟩ : Shape).ShapeCasts ⟨3, ![a, b, c]⟩) (i : Fin a) (j : Fin b) (k : Fin c) (p : Fin n)
    (hp : p.val = i.val * b + j.val) :
    shapeCast ⟨3, ![a, b, c]⟩ x h (ix3 i j k) = x (ix2 p k) :=
  shapeCast_apply x h _ _ (by
    rw [Shape.rowMajor_val_three, Shape.rowMajor_val_two]
    show p.val * c + k.val = (i.val * b + j.val) * c + k.val
    rw [hp])

end Cert.LibOuterSumLayout

end
-- ==== Proof.TileStep.lean ====
/-
  What one grid step computes, entry by entry, over the extended reals.

  At a step the body holds a 1024 × 512 tile `x` of activations, a 512 × 1024 tile `q` of integer weight codes, and
  8 × 1024 tiles `s`, `z` of scales and zero points: row `l` of the weight tile belongs to group `l / 64` of the
  eight groups the tile spans. It dequantizes the weight tile, `w[l, c] = q[l, c] · s[l / 64, c] + z[l / 64, c]`,
  multiplies, and adds the product to the running block `acc`:
  `acc[r, c] + ∑ l, x[r, l] · w[l, c]`. The roundings to a narrower float format before the product are the
  identity on extended reals. The first step of a run starts from the zero block; the last step adds the bias row.
-/
import proofs.«154683_j68676527063117_1_alg».proof.Proof.Gen.KernelIdeal.Skeleton
import proofs.«154683_j68676527063117_1_alg».proof.Proof.LibPlainMatmul
import proofs.«154683_j68676527063117_1_alg».proof.Proof.LibOuterSumLayout
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.TileStep

open Cert.KernelIdeal Cert.KernelIdeal.Gen Idealize.ShloMosaic Idealize.ShloMosaic.ValueIdx

/-- The group, among the eight a 512-row tile spans, of the tile's row `l`. -/
def rowGroup (l : Fin 512) : Fin 8 := ⟨l.val / 64, by have := l.isLt; omega⟩

/-- An 8 × 1024 table of per-group values, each row repeated 64 times to give a 512 × 1024 tile, reads at row
    `l` the table's row `l / 64`. -/
theorem perGroup_apply (v : FVec Ideal S8x1024 .f32) (h1 : S8x1024.ShapeCasts S8x1x1024)
    (h2 : S8x1x1024.ShapeCasts S8x1x1024) (h3 : S8x1x1024.Broadcasts S8x64x1024)
    (h4 : S8x64x1024.ShapeCasts S512x1024) (l : Fin 512) (c : Fin 1024) :
    shapeCast S512x1024 (broadcastTo S8x64x1024 (shapeCast S8x1x1024 (shapeCast S8x1x1024 v h1) h2) h3) h4 (ix2 l c)
      = v (ix2 (rowGroup l) c) := by
  refine (Cert.LibOuterSumLayout.shapeCast_abc_nc_apply _ h4 (rowGroup l)
    (⟨l.val % 64, Nat.mod_lt _ (by norm_num)⟩ : Fin 64) c l ?_).trans ?_
  · show l.val = l.val / 64 * 64 + l.val % 64
    omega
  refine (Cert.LibOuterSumLayout.broadcastTo_a1c_abc_apply _ h3 _ _ _).trans ?_
  rw [shapeCast_self]
  exact Cert.LibOuterSumLayout.shapeCast_ac_a1c_apply v h1 _ _ _

/-- The block a run starts from is zero everywhere. -/
theorem zeroBlock_apply (i : S1024x1024.Idx) : k0_pay1 (F := Ideal) i = 0 := by
  unfold k0_pay1
  rw [shapeCast_self]
  exact Ideal.ofBits_zero_f32

/-- One step: the running block plus the product of the activation tile with the dequantized weight tile. -/
theorem accumulate_apply (q : IVec S512x1024 32) (s z : FVec Ideal S8x1024 .f32) (x : FVec Ideal S1024x512 .f32)
    (acc : FVec Ideal S1024x1024 .f32) (r c : Fin 1024) :
    k0_pay2 (F := Ideal) q s z x acc (ix2 r c)
      = acc (ix2 r c) + ∑ l : Fin 512, x (ix2 r l)
          * (FloatOps.sitofp (F := Ideal) FTy.f32 (q (ix2 l c)) * s (ix2 (rowGroup l) c) + z (ix2 (rowGroup l) c)) := by
  unfold k0_pay2
  rw [shapeCast_self]
  refine congrArg (acc (ix2 r c) + ·) ?_
  refine (Cert.LibPlainMatmul.matmul_zero_apply dot_S1024x512_S512x1024_S1024x1024_1_0_0_1_n_n rfl rfl rfl rfl rfl rfl
    none _ _ r c).trans ?_
  refine Finset.sum_congr rfl fun l _ => ?_
  refine congrArg (x (ix2 r l) * ·) ?_
  exact congrArg₂ (· + ·)
    (congrArg (FloatOps.sitofp (F := Ideal) FTy.f32 (q (ix2 l c)) * ·) (perGroup_apply s _ _ _ _ l c))
    (perGroup_apply z _ _ _ _ l c)

/-- The last step's result block: the finished running block plus the bias row, repeated down the rows. -/
theorem addBias_apply (acc : FVec Ideal S1024x1024 .f32) (b : FVec Ideal S1x1024 .f32) (r c : Fin 1024) :
    k0_pay3 (F := Ideal) acc b (ix2 r c) = acc (ix2 r c) + b (ix2 (0 : Fin 1) c) := by
  unfold k0_pay3
  rw [shapeCast_self]
  exact congrArg (acc (ix2 r c) + ·) (broadcastTo_1b_ab_apply b _ r c)

end Cert.KernelIdeal.TileStep

end
-- ==== Proof.PointStep.lean ====
/-
  One grid step, placed in the whole arrays.

  Point `n` of the 4 × 12 × 8 grid works on output block (row block `n / 96`, column block `n / 8 % 12`) and on
  contraction tile `n % 8`. If the tiles it holds are those pieces of the whole arrays — activations
  `X[1024·(n/96) + r, 512·(n%8) + l]`, codes `Q[512·(n%8) + l, 1024·(n/8%12) + c]`, scales and zero points
  `S, Z[8·(n%8) + g, 1024·(n/8%12) + c]` — then what its step adds to entry `(r, c)` of the block is the tile term
  `n % 8` of that entry's contraction: row `512·(n%8) + l` of the contraction lies in group `8·(n%8) + l / 64`.
-/
import proofs.«154683_j68676527063117_1_alg».proof.Proof.TileStep
import proofs.«154683_j68676527063117_1_alg».proof.Proof.DequantProduct

noncomputable section

namespace Cert.KernelIdeal.PointStep

open Cert.KernelIdeal Cert.KernelIdeal.Gen Cert.DequantProduct Cert.KernelIdeal.TileStep
open Idealize.ShloMosaic Idealize.ShloMosaic.ValueIdx

/-- Row `r` of point `n`'s output block, as a row of the result (the remainder only makes the definition total). -/
def blockRow (n : ℕ) (r : Fin 1024) : Fin 4096 := ⟨(1024 * (n / 96) + r.val) % 4096, Nat.mod_lt _ (by norm_num)⟩
/-- Column `c` of point `n`'s output block, as a column of the result. -/
def blockCol (n : ℕ) (c : Fin 1024) : Fin 12288 := ⟨(1024 * (n / 8 % 12) + c.val) % 12288, Nat.mod_lt _ (by norm_num)⟩
/-- Group `g` of the eight groups point `n`'s contraction tile spans, as a group of the whole contraction. -/
def groupRow (n : ℕ) (g : Fin 8) : Fin 64 := ⟨(8 * (n % 8) + g.val) % 64, Nat.mod_lt _ (by norm_num)⟩

/-- A row of a contraction tile lies in the group its tile-local group names. -/
theorem grp_tileRow (n : ℕ) (l : Fin 512) : grp (tileRow (n % 8) l) = groupRow n (rowGroup l) := by
  have hl := l.isLt
  apply Fin.ext
  show (512 * (n % 8) + l.val) % 4096 / 64 = (8 * (n % 8) + l.val / 64) % 64
  omega

/-- What point `n` adds to entry `(r, c)` of its block is the entry's tile term `n % 8`. -/
theorem addend_eq (x : FVec Ideal S1024x512 .f32) (q : IVec S512x1024 32) (s z : FVec Ideal S8x1024 .f32)
    (X : (⟨2, ![4096, 4096]⟩ : Shape).Idx → EReal) (Q : (⟨2, ![4096, 12288]⟩ : Shape).Idx → BitVec 32)
    (S Z : (⟨2, ![64, 12288]⟩ : Shape).Idx → EReal) (n : ℕ)
    (hx : ∀ (r : Fin 1024) (l : Fin 512), x (ix2 r l) = X (ix2 (blockRow n r) (tileRow (n % 8) l)))
    (hq : ∀ (l : Fin 512) (c : Fin 1024), q (ix2 l c) = Q (ix2 (tileRow (n % 8) l) (blockCol n c)))
    (hs : ∀ (g : Fin 8) (c : Fin 1024), s (ix2 g c) = S (ix2 (groupRow n g) (blockCol n c)))
    (hz : ∀ (g : Fin 8) (c : Fin 1024), z (ix2 g c) = Z (ix2 (groupRow n g) (blockCol n c)))
    (r c : Fin 1024) :
    ∑ l : Fin 512, x (ix2 r l)
        * (FloatOps.sitofp (F := Ideal) FTy.f32 (q (ix2 l c)) * s (ix2 (rowGroup l) c) + z (ix2 (rowGroup l) c))
      = tileTerm X Q S Z (blockRow n r) (blockCol n c) (n % 8) := by
  unfold tileTerm weight
  refine Finset.sum_congr rfl fun l _ => ?_
  rw [hx, hq, hs, hz, grp_tileRow]

/-- The step at point `n`: the running block plus the tile term `n % 8`. -/
theorem step_apply (x : FVec Ideal S1024x512 .f32) (q : IVec S512x1024 32) (s z : FVec Ideal S8x1024 .f32)
    (X : (⟨2, ![4096, 4096]⟩ : Shape).Idx → EReal) (Q : (⟨2, ![4096, 12288]⟩ : Shape).Idx → BitVec 32)
    (S Z : (⟨2, ![64, 12288]⟩ : Shape).Idx → EReal) (n : ℕ)
    (hx : ∀ (r : Fin 1024) (l : Fin 512), x (ix2 r l) = X (ix2 (blockRow n r) (tileRow (n % 8) l)))
    (hq : ∀ (l : Fin 512) (c : Fin 1024), q (ix2 l c) = Q (ix2 (tileRow (n % 8) l) (blockCol n c)))
    (hs : ∀ (g : Fin 8) (c : Fin 1024), s (ix2 g c) = S (ix2 (groupRow n g) (blockCol n c)))
    (hz : ∀ (g : Fin 8) (c : Fin 1024), z (ix2 g c) = Z (ix2 (groupRow n g) (blockCol n c)))
    (acc : FVec Ideal S1024x1024 .f32) (r c : Fin 1024) :
    k0_pay2 (F := Ideal) q s z x acc (ix2 r c)
      = acc (ix2 r c) + tileTerm X Q S Z (blockRow n r) (blockCol n c) (n % 8) :=
  (accumulate_apply q s z x acc r c).trans
    (congrArg (acc (ix2 r c) + ·) (addend_eq x q s z X Q S Z n hx hq hs hz r c))

end Cert.KernelIdeal.PointStep

end
-- ==== Proof.KernelBlocks.lean ====
/-
  The kernel's result array, entry by entry, over the extended reals.

  The grid is 4 × 12 × 8: point `t` works on output block (row block `t / 96`, column block `t / 8 % 12`) and on
  contraction tile `t % 8`. The eight points of one output block are consecutive. Over them a scratch block
  accumulates: the first point of the run stores the zero block and adds its tile's product, every later point adds
  its tile's product to what the point before left, and the last point also writes the finished block plus the bias
  row to the output. So after point `t` the scratch block holds, at `(r, c)`, the sum of the tile terms
  `0 … t % 8` of the entry's contraction (`scratch_eq`, by induction on the point), and the block written back at a
  run's last point is the dequantized product plus bias restricted to that block (`flushed_eq`). The 48 blocks
  written back tile the 4096 × 12288 result (`cover`), hence the whole result array (`final`).
-/
import proofs.«154683_j68676527063117_1_alg».proof.Proof.Gen.KernelIdeal.Value
import proofs.«154683_j68676527063117_1_alg».proof.Proof.DequantProduct
import proofs.«154683_j68676527063117_1_alg».proof.Proof.TileStep
import proofs.«154683_j68676527063117_1_alg».proof.Proof.PointStep
import Idealize.ShloMosaic.Lib.Pipeline.Value
import Idealize.ShloMosaic.Lib.StableHlo.Run
import Idealize.ShloMosaic.Lib.Tactic
import Idealize.ShloMosaic.Lib.ValueIdx
import Idealize.ShloMosaic.Lib.ValueLayout

noncomputable section

namespace Cert.KernelIdeal.Blocks

open Cert.KernelIdeal Cert.KernelIdeal.Gen Cert.DequantProduct Cert.KernelIdeal.TileStep Cert.KernelIdeal.PointStep
open Idealize.ShloMosaic Idealize.ShloMosaic.TcCoe Idealize.SL.Sem Idealize.ShloMosaic.ValueIdx
open Idealize.ShloMosaic.Pipeline (Dat)

/-! ## What the body's stores leave, at any float values -/

section Stores

variable {F : FTy → Type} [FloatOps F]

theorem hz : (![0, 0] : Fin 2 → Nat) = fun _ => 0 := funext fun a => by fin_cases a <;> rfl

/-- A middle point of a run leaves in the scratch block the step of the loaded tiles over what the block held. -/
theorem scratch_mid (c : Dev nD) (i : grid0.Coords) (arg3 : Memref sig .tc .vmem S1024x512 .f32) (harg3 : arg3.IsWhole) (arg4 : Memref sig .tc .vmem S512x1024 .i32) (harg4 : arg4.IsWhole) (arg5 : Memref sig .tc .vmem S8x1024 .f32) (harg5 : arg5.IsWhole) (arg6 : Memref sig .tc .vmem S8x1024 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (hc0 : ¬cond0_0 i) (hc1 : ¬cond0_1 i) (x0 : Vec F S1024x512 .f32) (x1 : Vec F S512x1024 .i32) (x2 : Vec F S8x1024 .f32) (x3 : Vec F S8x1024 .f32) (x4 : Vec F S1x1024 .f32) (xs0 : Vec F S1024x1024 .f32) :
    sout0_B_0 c i arg3 harg3 arg4 harg4 arg5 harg5 arg6 harg6 arg7 harg7 arg8 harg8 arg9 harg9 hc0 hc1 x0 x1 x2 x3 x4 xs0 = k0_pay2 x1 x2 x3 x0 xs0 := by
  unfold sout0_B_0
  rw [View.read_writes_eq_canon _ _ _ (scover0_B_0 c i arg3 harg3 arg4 harg4 arg5 harg5 arg6 harg6 arg7 harg7 arg8 harg8 arg9 harg9 hc0 hc1 x0 x1 x2 x3 x4 xs0)]
  unfold kernelRun0_B
  dsimp only
  rw [View.canon_unit_zero hz]
  simp only [View.readAt_eq_ld, harg3.read_unread, harg4.read_unread, harg5.read_unread, harg6.read_unread,
    harg7.read_unread, harg9.read_unread, View.ld_unit_zero (S := S1024x512) hz, View.ld_unit_zero (S := S512x1024) hz,
    View.ld_unit_zero (S := S8x1024) hz, View.ld_unit_zero (S := S1x1024) hz, View.ld_unit_zero (S := S1024x1024) hz]

/-- The last point of a run leaves the same in the scratch block. -/
theorem scratch_last (c : Dev nD) (i : grid0.Coords) (arg3 : Memref sig .tc .vmem S1024x512 .f32) (harg3 : arg3.IsWhole) (arg4 : Memref sig .tc .vmem S512x1024 .i32) (harg4 : arg4.IsWhole) (arg5 : Memref sig .tc .vmem S8x1024 .f32) (harg5 : arg5.IsWhole) (arg6 : Memref sig .tc .vmem S8x1024 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (hc0 : ¬cond0_0 i) (hc1 : cond0_1 i) (x0 : Vec F S1024x512 .f32) (x1 : Vec F S512x1024 .i32) (x2 : Vec F S8x1024 .f32) (x3 : Vec F S8x1024 .f32) (x4 : Vec F S1x1024 .f32) (xs0 : Vec F S1024x1024 .f32) :
    sout0_C_0 c i arg3 harg3 arg4 harg4 arg5 harg5 arg6 harg6 arg7 harg7 arg8 harg8 arg9 harg9 hc0 hc1 x0 x1 x2 x3 x4 xs0 = k0_pay2 x1 x2 x3 x0 xs0 := by
  unfold sout0_C_0
  rw [View.read_writes_eq_canon _ _ _ (scover0_C_0 c i arg3 harg3 arg4 harg4 arg5 harg5 arg6 harg6 arg7 harg7 arg8 harg8 arg9 harg9 hc0 hc1 x0 x1 x2 x3 x4 xs0)]
  unfold kernelRun0_C
  dsimp only
  sl_unfold_words
  rw [View.canon_unit_zero hz]
  simp only [View.readAt_eq_ld, harg3.read_unread, harg4.read_unread, harg5.read_unread, harg6.read_unread,
    harg7.read_unread, harg9.read_unread, View.ld_unit_zero (S := S1024x512) hz, View.ld_unit_zero (S := S512x1024) hz,
    View.ld_unit_zero (S := S8x1024) hz, View.ld_unit_zero (S := S1x1024) hz, View.ld_unit_zero (S := S1024x1024) hz]

/-- The first point of a run stores the zero block, reads it back, and leaves the step over it. -/
theorem scratch_first (c : Dev nD) (i : grid0.Coords) (arg3 : Memref sig .tc .vmem S1024x512 .f32) (harg3 : arg3.IsWhole) (arg4 : Memref sig .tc .vmem S512x1024 .i32) (harg4 : arg4.IsWhole) (arg5 : Memref sig .tc .vmem S8x1024 .f32) (harg5 : arg5.IsWhole) (arg6 : Memref sig .tc .vmem S8x1024 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (hc0 : cond0_0 i) (hc1 : ¬cond0_1 i) (x0 : Vec F S1024x512 .f32) (x1 : Vec F S512x1024 .i32) (x2 : Vec F S8x1024 .f32) (x3 : Vec F S8x1024 .f32) (x4 : Vec F S1x1024 .f32) :
    sout0_A_0 c i arg3 harg3 arg4 harg4 arg5 harg5 arg6 harg6 arg7 harg7 arg8 harg8 arg9 harg9 hc0 hc1 x0 x1 x2 x3 x4 = k0_pay2 x1 x2 x3 x0 k0_pay1 := by
  unfold sout0_A_0
  rw [View.read_writes_eq_canon _ _ _ (scover0_A_0 c i arg3 harg3 arg4 harg4 arg5 harg5 arg6 harg6 arg7 harg7 arg8 harg8 arg9 harg9 hc0 hc1 x0 x1 x2 x3 x4)]
  unfold kernelRun0_A
  dsimp only
  sl_unfold_words
  rw [View.canon_cons_unit_zero (S := S1024x1024) hz, View.readCov_unit_zero (S := S1024x1024) _ hz]
  simp only [View.readAt_eq_ld, harg3.read_unread, harg4.read_unread, harg5.read_unread, harg6.read_unread,
    harg7.read_unread, harg9.read_unread, View.ld_unit_zero (S := S1024x512) hz, View.ld_unit_zero (S := S512x1024) hz,
    View.ld_unit_zero (S := S8x1024) hz, View.ld_unit_zero (S := S1x1024) hz, View.ld_unit_zero (S := S1024x1024) hz]

/-- The last point of a run reads the scratch block back after its step and stores it plus the bias row to the
    output block. -/
theorem out_last (c : Dev nD) (i : grid0.Coords) (arg3 : Memref sig .tc .vmem S1024x512 .f32) (harg3 : arg3.IsWhole) (arg4 : Memref sig .tc .vmem S512x1024 .i32) (harg4 : arg4.IsWhole) (arg5 : Memref sig .tc .vmem S8x1024 .f32) (harg5 : arg5.IsWhole) (arg6 : Memref sig .tc .vmem S8x1024 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (hc0 : ¬cond0_0 i) (hc1 : cond0_1 i) (x0 : Vec F S1024x512 .f32) (x1 : Vec F S512x1024 .i32) (x2 : Vec F S8x1024 .f32) (x3 : Vec F S8x1024 .f32) (x4 : Vec F S1x1024 .f32) (xs0 : Vec F S1024x1024 .f32) :
    out0_C_5 c i arg3 harg3 arg4 harg4 arg5 harg5 arg6 harg6 arg7 harg7 arg8 harg8 arg9 harg9 hc0 hc1 x0 x1 x2 x3 x4 xs0 = k0_pay3 (k0_pay2 x1 x2 x3 x0 xs0) x4 := by
  unfold out0_C_5
  rw [View.read_writes_eq_canon _ _ _ (cover0_C_5 c i arg3 harg3 arg4 harg4 arg5 harg5 arg6 harg6 arg7 harg7 arg8 harg8 arg9 harg9 hc0 hc1 x0 x1 x2 x3 x4 xs0)]
  unfold kernelRun0_C
  dsimp only
  sl_unfold_words
  rw [View.canon_unit_zero hz, View.readCov_unit_zero (S := S1024x1024) _ hz]
  simp only [View.readAt_eq_ld, harg3.read_unread, harg4.read_unread, harg5.read_unread, harg6.read_unread,
    harg7.read_unread, harg9.read_unread, View.ld_unit_zero (S := S1024x512) hz, View.ld_unit_zero (S := S512x1024) hz,
    View.ld_unit_zero (S := S8x1024) hz, View.ld_unit_zero (S := S1x1024) hz, View.ld_unit_zero (S := S1024x1024) hz]

variable (m : (ℓ : Loc nD τ sig) → Buf (Elt F) ℓ)

/-- After the first point of a run the scratch block is the step of that point's tiles over the zero block. -/
theorem scratchAt_first (c : Dev nD) (t : Fin cfg0.N) (h0 : t.val % 8 = 0) :
    (outsAt0 m c t.val t.isLt).2
      = k0_pay2 (iblk m c 1 t) (iblk m c 2 t) (iblk m c 3 t) (iblk m c 0 t) k0_pay1 := by
  have h1 : ¬t.val % 8 = 7 := by omega
  rw [outsAt0_A m c t h0 h1]
  dsimp only
  exact scratch_first c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk m c 0 t) (iblk m c 1 t) (iblk m c 2 t) (iblk m c 3 t) (iblk m c 4 t)

/-- After any later point of a run it is the step of that point's tiles over what the point before left. -/
theorem scratchAt_next (c : Dev nD) (n : ℕ) (h : n + 1 < cfg0.N) (h0 : ¬(n + 1) % 8 = 0) :
    (outsAt0 m c (n + 1) h).2
      = k0_pay2 (iblk m c 1 ⟨n + 1, h⟩) (iblk m c 2 ⟨n + 1, h⟩) (iblk m c 3 ⟨n + 1, h⟩) (iblk m c 0 ⟨n + 1, h⟩)
          (outsAt0 m c n (Nat.lt_of_succ_lt h)).2 := by
  by_cases h1 : (n + 1) % 8 = 7
  · rw [outsAt0_C m c ⟨n + 1, h⟩ h0 h1]
    dsimp only
    exact scratch_last c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) scM0_0 (Memref.isWhole_whole _) (fun hh => h0 ((hcond0_0 ⟨n + 1, h⟩).mp hh)) ((hcond0_1 ⟨n + 1, h⟩).mpr h1)
        (iblk m c 0 ⟨n + 1, h⟩) (iblk m c 1 ⟨n + 1, h⟩) (iblk m c 2 ⟨n + 1, h⟩) (iblk m c 3 ⟨n + 1, h⟩) (iblk m c 4 ⟨n + 1, h⟩) (outsAt0 m c n (Nat.lt_of_succ_lt h)).2
  · rw [outsAt0_B m c ⟨n + 1, h⟩ h0 h1]
    dsimp only
    exact scratch_mid c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) scM0_0 (Memref.isWhole_whole _) (fun hh => h0 ((hcond0_0 ⟨n + 1, h⟩).mp hh)) (fun hh => h1 ((hcond0_1 ⟨n + 1, h⟩).mp hh))
        (iblk m c 0 ⟨n + 1, h⟩) (iblk m c 1 ⟨n + 1, h⟩) (iblk m c 2 ⟨n + 1, h⟩) (iblk m c 3 ⟨n + 1, h⟩) (iblk m c 4 ⟨n + 1, h⟩) (outsAt0 m c n (Nat.lt_of_succ_lt h)).2

/-- At the last point of a run the output block is the scratch block that point leaves, plus the bias row. -/
theorem outAt_last (c : Dev nD) (t : Fin cfg0.N) (h7 : t.val % 8 = 7) :
    (outsAt0 m c t.val t.isLt).1 = k0_pay3 (outsAt0 m c t.val t.isLt).2 (iblk m c 4 t) := by
  have h0 : ¬t.val % 8 = 0 := by omega
  rw [outsAt0_C m c t h0 h7]
  dsimp only
  exact (out_last c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h7) (iblk m c 0 t) (iblk m c 1 t) (iblk m c 2 t) (iblk m c 3 t) (iblk m c 4 t)
      (outsAt0 m c (t.val - 1) (Nat.lt_of_le_of_lt (Nat.sub_le _ _) t.isLt)).2).trans
    (congrArg (k0_pay3 · (iblk m c 4 t))
      (scratch_last c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h7) (iblk m c 0 t) (iblk m c 1 t) (iblk m c 2 t) (iblk m c 3 t) (iblk m c 4 t)
        (outsAt0 m c (t.val - 1) (Nat.lt_of_le_of_lt (Nat.sub_le _ _) t.isLt)).2).symm)

end Stores

/-! ## Where each point's tiles sit in the arrays -/

section Reads

variable {F : FTy → Type} [FloatOps F]
variable (m : (ℓ : Loc nD τ sig) → Buf (Elt F) ℓ)

/-- The block index maps, decided over the grid: row block `t / 96`, column block `t / 8 % 12`, contraction tile
    `t % 8`. -/
theorem index_facts : ∀ t : Fin cfg0.N,
    win0_0.index t (0 : Fin 2) = t.val / 96 ∧ win0_0.index t (1 : Fin 2) = t.val % 8
    ∧ win0_1.index t (0 : Fin 2) = t.val % 8 ∧ win0_1.index t (1 : Fin 2) = t.val / 8 % 12
    ∧ win0_2.index t (0 : Fin 2) = t.val % 8 ∧ win0_2.index t (1 : Fin 2) = t.val / 8 % 12
    ∧ win0_3.index t (0 : Fin 2) = t.val % 8 ∧ win0_3.index t (1 : Fin 2) = t.val / 8 % 12
    ∧ win0_4.index t (0 : Fin 2) = 0 ∧ win0_4.index t (1 : Fin 2) = t.val / 8 % 12
    ∧ win0_5.index t (0 : Fin 2) = t.val / 96 ∧ win0_5.index t (1 : Fin 2) = t.val / 8 % 12 :=
  (by decide +kernel : ∀ t : Fin grid0.N, _)

/-- The activation tile at point `t`. -/
theorem xTile_apply (c : Dev nD) (t : Fin cfg0.N) (r : Fin 1024) (l : Fin 512) :
    (iblk m c 0 t : Vec F S1024x512 .f32) (ix2 r l)
      = V m c main_arg0 (ix2 (blockRow t.val r) (tileRow (t.val % 8) l)) := by
  have hN : t.val < 384 := lt_of_lt_of_eq t.isLt (show cfg0.N = 384 from N_0)
  obtain ⟨e0, e1, -⟩ := index_facts t
  have hr := r.isLt
  have hl := l.isLt
  unfold iblk
  rw [View.read_apply]
  show V m c main_arg0 (((cfg0.win 0).blk t).view.emb (ix2 r l)) = V m c main_arg0 _
  refine congrArg (V m c main_arg0) (funext fun a => Fin.ext ?_)
  match a with
  | ⟨0, _⟩ =>
    show win0_0.index t (0 : Fin 2) * 1024 + 1 * r.val = (1024 * (t.val / 96) + r.val) % 4096
    rw [e0]; omega
  | ⟨1, _⟩ =>
    show win0_0.index t (1 : Fin 2) * 512 + 1 * l.val = (512 * (t.val % 8) + l.val) % 4096
    rw [e1]; omega

/-- The tile of weight codes at point `t`. -/
theorem qTile_apply (c : Dev nD) (t : Fin cfg0.N) (l : Fin 512) (cc : Fin 1024) :
    (iblk m c 1 t : Vec F S512x1024 .i32) (ix2 l cc)
      = V m c main_arg1 (ix2 (tileRow (t.val % 8) l) (blockCol t.val cc)) := by
  have hN : t.val < 384 := lt_of_lt_of_eq t.isLt (show cfg0.N = 384 from N_0)
  obtain ⟨-, -, e0, e1, -⟩ := index_facts t
  have hc := cc.isLt
  have hl := l.isLt
  unfold iblk
  rw [View.read_apply]
  show V m c main_arg1 (((cfg0.win 1).blk t).view.emb (ix2 l cc)) = V m c main_arg1 _
  refine congrArg (V m c main_arg1) (funext fun a => Fin.ext ?_)
  match a with
  | ⟨0, _⟩ =>
    show win0_1.index t (0 : Fin 2) * 512 + 1 * l.val = (512 * (t.val % 8) + l.val) % 4096
    rw [e0]; omega
  | ⟨1, _⟩ =>
    show win0_1.index t (1 : Fin 2) * 1024 + 1 * cc.val = (1024 * (t.val / 8 % 12) + cc.val) % 12288
    rw [e1]; omega

/-- The tile of scales at point `t`. -/
theorem sTile_apply (c : Dev nD) (t : Fin cfg0.N) (g : Fin 8) (cc : Fin 1024) :
    (iblk m c 2 t : Vec F S8x1024 .f32) (ix2 g cc)
      = V m c main_arg2 (ix2 (groupRow t.val g) (blockCol t.val cc)) := by
  have hN : t.val < 384 := lt_of_lt_of_eq t.isLt (show cfg0.N = 384 from N_0)
  obtain ⟨-, -, -, -, e0, e1, -⟩ := index_facts t
  have hc := cc.isLt
  have hg := g.isLt
  unfold iblk
  rw [View.read_apply]
  show V m c main_arg2 (((cfg0.win 2).blk t).view.emb (ix2 g cc)) = V m c main_arg2 _
  refine congrArg (V m c main_arg2) (funext fun a => Fin.ext ?_)
  match a with
  | ⟨0, _⟩ =>
    show win0_2.index t (0 : Fin 2) * 8 + 1 * g.val = (8 * (t.val % 8) + g.val) % 64
    rw [e0]; omega
  | ⟨1, _⟩ =>
    show win0_2.index t (1 : Fin 2) * 1024 + 1 * cc.val = (1024 * (t.val / 8 % 12) + cc.val) % 12288
    rw [e1]; omega

/-- The tile of zero points at point `t`. -/
theorem zTile_apply (c : Dev nD) (t : Fin cfg0.N) (g : Fin 8) (cc : Fin 1024) :
    (iblk m c 3 t : Vec F S8x1024 .f32) (ix2 g cc)
      = V m c main_arg3 (ix2 (groupRow t.val g) (blockCol t.val cc)) := by
  have hN : t.val < 384 := lt_of_lt_of_eq t.isLt (show cfg0.N = 384 from N_0)
  obtain ⟨-, -, -, -, -, -, e0, e1, -⟩ := index_facts t
  have hc := cc.isLt
  have hg := g.isLt
  unfold iblk
  rw [View.read_apply]
  show V m c main_arg3 (((cfg0.win 3).blk t).view.emb (ix2 g cc)) = V m c main_arg3 _
  refine congrArg (V m c main_arg3) (funext fun a => Fin.ext ?_)
  match a with
  | ⟨0, _⟩ =>
    show win0_3.index t (0 : Fin 2) * 8 + 1 * g.val = (8 * (t.val % 8) + g.val) % 64
    rw [e0]; omega
  | ⟨1, _⟩ =>
    show win0_3.index t (1 : Fin 2) * 1024 + 1 * cc.val = (1024 * (t.val / 8 % 12) + cc.val) % 12288
    rw [e1]; omega

/-- The piece of the bias row at point `t`. -/
theorem biasTile_apply (c : Dev nD) (t : Fin cfg0.N) (cc : Fin 1024) :
    (iblk m c 4 t : Vec F S1x1024 .f32) (ix2 (0 : Fin 1) cc)
      = V m c main_v0 (ix2 (0 : Fin 1) (blockCol t.val cc)) := by
  have hN : t.val < 384 := lt_of_lt_of_eq t.isLt (show cfg0.N = 384 from N_0)
  obtain ⟨-, -, -, -, -, -, -, -, e0, e1, -⟩ := index_facts t
  have hc := cc.isLt
  unfold iblk
  rw [View.read_apply]
  show V m c main_v0 (((cfg0.win 4).blk t).view.emb (ix2 (0 : Fin 1) cc)) = V m c main_v0 _
  refine congrArg (V m c main_v0) (funext fun a => Fin.ext ?_)
  match a with
  | ⟨0, _⟩ =>
    show win0_4.index t (0 : Fin 2) * 1 + 1 * 0 = 0
    rw [e0]
  | ⟨1, _⟩ =>
    show win0_4.index t (1 : Fin 2) * 1024 + 1 * cc.val = (1024 * (t.val / 8 % 12) + cc.val) % 12288
    rw [e1]; omega

/-- The bias row the region finds is the bias vector viewed as one row. -/
theorem biasRow_apply (c : Dev nD) (n : Fin 12288) :
    (V m c main_v0 : S1x12288.Idx → Elt F .f32) (ix2 (0 : Fin 1) n) = m ((c : Thread nD τ).loc main_arg4) (ix1 n) := by
  have e : (V m c main_v0 : S1x12288.Idx → Elt F .f32)
      = shapeCast S1x12288 (m ((c : Thread nD τ).loc main_arg4)) Facts₀.shapeCasts_S12288_S1x12288 := by
    dsimp only [Gen.V, Gen.hostOps0]; after_results; rfl
  rw [e]
  exact shapeCast_a_1a_apply _ _ 0 n

end Reads

/-! ## The values, over the extended reals -/

section Values

variable (m : (ℓ : Loc nD τ sig) → Buf (Elt Ideal) ℓ) (ρ : Dev nD → PrngReg)

/-- The step at point `t`, over any running block: the block plus the tile term `t % 8` of each entry, the tiles
    being the point's pieces of the argument arrays. -/
theorem stepAt (c : Dev nD) (t : Fin cfg0.N) (acc : FVec Ideal S1024x1024 .f32) (r cc : Fin 1024) :
    k0_pay2 (F := Ideal) (iblk m c 1 t) (iblk m c 2 t) (iblk m c 3 t) (iblk m c 0 t) acc (ix2 r cc)
      = acc (ix2 r cc) + tileTerm (V m c main_arg0) (V m c main_arg1) (V m c main_arg2) (V m c main_arg3)
          (blockRow t.val r) (blockCol t.val cc) (t.val % 8) :=
  step_apply (iblk m c 0 t) (iblk m c 1 t) (iblk m c 2 t) (iblk m c 3 t) (V m c main_arg0) (V m c main_arg1)
    (V m c main_arg2) (V m c main_arg3) t.val (xTile_apply m c t) (qTile_apply m c t) (sTile_apply m c t)
    (zTile_apply m c t) acc r cc

/-- THE ACCUMULATION: after point `n` the scratch block holds, at `(r, c)`, the tile terms `0 … n % 8` of the
    entry's contraction — by induction on the point. -/
theorem scratch_eq (c : Dev nD) : ∀ (n : ℕ) (h : n < cfg0.N) (r cc : Fin 1024),
    (outsAt0 m c n h).2 (ix2 r cc)
      = ∑ k ∈ Finset.range (n % 8 + 1), tileTerm (V m c main_arg0) (V m c main_arg1) (V m c main_arg2)
          (V m c main_arg3) (blockRow n r) (blockCol n cc) k
  | 0, h, r, cc => by
    rw [scratchAt_first m c ⟨0, h⟩ rfl]
    refine (stepAt m c ⟨0, h⟩ k0_pay1 r cc).trans ?_
    rw [zeroBlock_apply, zero_add]
    exact (Finset.sum_range_one _).symm
  | n + 1, h, r, cc => by
    have hN : n + 1 < 384 := lt_of_lt_of_eq h (show cfg0.N = 384 from N_0)
    by_cases h0 : (n + 1) % 8 = 0
    · rw [scratchAt_first m c ⟨n + 1, h⟩ h0]
      refine (stepAt m c ⟨n + 1, h⟩ k0_pay1 r cc).trans ?_
      rw [zeroBlock_apply, zero_add]
      show tileTerm _ _ _ _ _ _ ((n + 1) % 8) = _
      rw [h0]
      exact (Finset.sum_range_one _).symm
    · rw [scratchAt_next m c n h h0]
      refine (stepAt m c ⟨n + 1, h⟩ (outsAt0 m c n (Nat.lt_of_succ_lt h)).2 r cc).trans ?_
      rw [scratch_eq c n (Nat.lt_of_succ_lt h) r cc]
      have e1 : blockRow n r = blockRow (n + 1) r := by
        apply Fin.ext
        show (1024 * (n / 96) + r.val) % 4096 = (1024 * ((n + 1) / 96) + r.val) % 4096
        omega
      have e2 : blockCol n cc = blockCol (n + 1) cc := by
        apply Fin.ext
        show (1024 * (n / 8 % 12) + cc.val) % 12288 = (1024 * ((n + 1) / 8 % 12) + cc.val) % 12288
        omega
      have e3 : (n + 1) % 8 = n % 8 + 1 := by omega
      show _ + tileTerm _ _ _ _ (blockRow (n + 1) r) (blockCol (n + 1) cc) ((n + 1) % 8) = _
      rw [e1, e2, e3]
      exact (Finset.sum_range_succ _ _).symm

/-- The result array: the dequantized product plus bias of the five arguments. -/
abbrev result (c : Dev nD) : Buf (Elt Ideal) ((c : Thread nD τ).loc main_v1) :=
  out (m ((c : Thread nD τ).loc main_arg0)) (m ((c : Thread nD τ).loc main_arg1))
    (m ((c : Thread nD τ).loc main_arg2)) (m ((c : Thread nD τ).loc main_arg3)) (m ((c : Thread nD τ).loc main_arg4))

/-- At the last point of a run the output block holds the result's entries of that block: the eight tile terms
    are the whole contraction. -/
theorem outBlock_apply (c : Dev nD) (t : Fin cfg0.N) (h7 : t.val % 8 = 7) (r cc : Fin 1024) :
    (outsAt0 m c t.val t.isLt).1 (ix2 r cc) = result m c (ix2 (blockRow t.val r) (blockCol t.val cc)) := by
  rw [outAt_last m c t h7]
  refine (addBias_apply (outsAt0 m c t.val t.isLt).2 (iblk m c 4 t) r cc).trans ?_
  have e8 : t.val % 8 + 1 = 8 := by omega
  rw [scratch_eq m c t.val t.isLt r cc, e8, sum_tiles, biasTile_apply m c t cc, biasRow_apply m c,
    V_main_arg0 m c, V_main_arg1 m c, V_main_arg2 m c, V_main_arg3 m c]
  rfl

/-- What a run's last point writes back is the result read through that point's block. -/
theorem flushed_eq (c : Dev nD) (t : Fin cfg0.N) (hf : (cfg0.win 5).flush t = true) :
    (dats m 0 c).flushed 5 t = ((cfg0.win 5).blk t).view.read (Elt Ideal) (result m c) := by
  have h7 : t.val % 8 = 7 := (flush0_5 t).mp hf
  have hN : t.val < 384 := lt_of_lt_of_eq t.isLt (show cfg0.N = 384 from N_0)
  obtain ⟨-, -, -, -, -, -, -, -, -, -, e0, e1⟩ := index_facts t
  rw [Cert.KernelIdeal.Value.flushed5 m c t]
  funext y
  obtain ⟨r, cc, rfl⟩ : ∃ (r cc : Fin 1024), y = ix2 r cc := ⟨y 0, y 1, eq_ix2 y⟩
  have hr := r.isLt
  have hc := cc.isLt
  show (outsAt0 m c t.val t.isLt).1 (ix2 r cc) = result m c (((cfg0.win 5).blk t).view.emb (ix2 r cc))
  rw [outBlock_apply m c t h7 r cc]
  refine congrArg (result m c) (funext fun a => Fin.ext ?_)
  match a with
  | ⟨0, _⟩ =>
    show (1024 * (t.val / 96) + r.val) % 4096 = win0_5.index t (0 : Fin 2) * 1024 + 1 * r.val
    rw [e0]; omega
  | ⟨1, _⟩ =>
    show (1024 * (t.val / 8 % 12) + cc.val) % 12288 = win0_5.index t (1 : Fin 2) * 1024 + 1 * cc.val
    rw [e1]; omega

/-- An index of the result is in point `t`'s block iff each coordinate is in the block's range on its axis. -/
theorem mem_block (t : Fin cfg0.N) (i : S4096x12288.Idx) :
    i ∈ ((cfg0.win 5).blk t).view.set ↔ ∀ a : Fin 2, win0_5.index t a * S1024x1024.size a ≤ (i a).val
      ∧ (i a).val < win0_5.index t a * S1024x1024.size a + S1024x1024.size a := by
  show i ∈ ((View.whole main_v1).slice (win0_5.rect t)).set ↔ _
  rw [View.set_slice_whole, Rect.mem_set_unit]
  exact Iff.rfl

/-- Every entry of the result lies in the block some run's last point writes back: entry `(R, C)` in the block of
    the run of row block `R / 1024` and column block `C / 1024`. -/
theorem cover (i : S4096x12288.Idx) :
    ∃ t : Fin cfg0.N, (cfg0.win 5).flush t = true ∧ i ∈ ((cfg0.win 5).blk t).view.set := by
  have h0 : (i 0).val < 4096 := (i 0).isLt
  have h1 : (i 1).val < 12288 := (i 1).isLt
  have hb : ((i 0).val / 1024 * 12 + (i 1).val / 1024) * 8 + 7 < cfg0.N := by
    rw [show cfg0.N = 384 from N_0]; omega
  obtain ⟨-, -, -, -, -, -, -, -, -, -, e0, e1⟩ :=
    index_facts ⟨((i 0).val / 1024 * 12 + (i 1).val / 1024) * 8 + 7, hb⟩
  refine ⟨⟨((i 0).val / 1024 * 12 + (i 1).val / 1024) * 8 + 7, hb⟩, (flush0_5 _).mpr ?_, ?_⟩
  · show (((i 0).val / 1024 * 12 + (i 1).val / 1024) * 8 + 7) % 8 = 7
    omega
  rw [mem_block]
  intro a
  match a with
  | ⟨0, _⟩ =>
    show win0_5.index ⟨((i 0).val / 1024 * 12 + (i 1).val / 1024) * 8 + 7, hb⟩ (0 : Fin 2) * 1024 ≤ (i 0).val
      ∧ (i 0).val < win0_5.index ⟨((i 0).val / 1024 * 12 + (i 1).val / 1024) * 8 + 7, hb⟩ (0 : Fin 2) * 1024 + 1024
    rw [e0]
    show (((i 0).val / 1024 * 12 + (i 1).val / 1024) * 8 + 7) / 96 * 1024 ≤ (i 0).val
      ∧ (i 0).val < (((i 0).val / 1024 * 12 + (i 1).val / 1024) * 8 + 7) / 96 * 1024 + 1024
    omega
  | ⟨1, _⟩ =>
    show win0_5.index ⟨((i 0).val / 1024 * 12 + (i 1).val / 1024) * 8 + 7, hb⟩ (1 : Fin 2) * 1024 ≤ (i 1).val
      ∧ (i 1).val < win0_5.index ⟨((i 0).val / 1024 * 12 + (i 1).val / 1024) * 8 + 7, hb⟩ (1 : Fin 2) * 1024 + 1024
    rw [e1]
    show (((i 0).val / 1024 * 12 + (i 1).val / 1024) * 8 + 7) / 8 % 12 * 1024 ≤ (i 1).val
      ∧ (i 1).val < (((i 0).val / 1024 * 12 + (i 1).val / 1024) * 8 + 7) / 8 % 12 * 1024 + 1024
    omega

/-- The result array after the run. -/
theorem final (c : Dev nD) : (dats m 0 c).arrAt 5 cfg0.N = result m c :=
  (dats m 0 c).arrAt_eq_of_cover 5 (result m c) (flushed_eq m c) cover

/-- The kernel's run, read: the result array at the dequantized product plus bias, the arguments unchanged. -/
theorem run : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩)
    (Cert.KernelIdeal.Value.run_blocks m ρ)

end Values

end Cert.KernelIdeal.Blocks

end
-- ==== Proof.ReferenceEntries.lean ====
/-
  The reference program's result, entry by entry, is the dequantized product plus bias.

  The reference converts the integer codes to floats, views the 4096 weight rows as 64 groups of 64, multiplies
  by the group's scale and adds the group's zero point (both repeated along the 64 rows of a group), views the
  result as 4096 rows again, takes the matrix product with the activations and adds the bias row. Regrouping rows
  `p ↦ (p / 64, p % 64)` and back is the identity, and the scale and zero point read at group `p / 64`.
-/
import proofs.«154683_j68676527063117_1_alg».proof.Proof.Gen.ReferenceIdeal.Read
import proofs.«154683_j68676527063117_1_alg».proof.Proof.DequantProduct

noncomputable section

namespace Cert.ReferenceIdeal.Entries

open Cert.ReferenceIdeal Cert.ReferenceIdeal.Read Cert.DequantProduct Idealize.ShloMosaic Idealize.ShloMosaic.ValueIdx

/-- The left factor of term `k` of entry `i` is the activation at `(i 0, k)`. -/
theorem lhs_index (i : S4096x12288.Idx) (k : Fin 4096) : lidx_main_v9 i k = ix2 (i 0) k :=
  funext fun a => Fin.ext (by match a with | ⟨0, _⟩ => rfl | ⟨1, _⟩ => rfl)

/-- Splitting row `k` into (group, row in group) and merging back returns row `k`. -/
theorem code_index (i : S4096x12288.Idx) (k : Fin 4096) :
    idx_main_v1 (idx_main_v8 (ridx_main_v9 i k)) = ix2 k (i 1) := by
  have hk := k.isLt
  have hi : (i 1).val < 12288 := (i 1).isLt
  funext a
  apply Fin.ext
  match a with
  | ⟨0, _⟩ =>
    show ((((k.val * 12288 + (i 1).val) / 786432) * 64 + (k.val * 12288 + (i 1).val) / 12288 % 64) * 12288
      + (k.val * 12288 + (i 1).val) % 12288) / 12288 = k.val
    omega
  | ⟨1, _⟩ =>
    show ((((k.val * 12288 + (i 1).val) / 786432) * 64 + (k.val * 12288 + (i 1).val) / 12288 % 64) * 12288
      + (k.val * 12288 + (i 1).val) % 12288) % 12288 = (i 1).val
    omega

/-- The scale of row `k` is read at group `k / 64`. -/
theorem scale_index (i : S4096x12288.Idx) (k : Fin 4096) :
    idx_main_v2 (idx_main_v3 (idx_main_v8 (ridx_main_v9 i k))) = ix2 (grp k) (i 1) := by
  have hk := k.isLt
  have hi : (i 1).val < 12288 := (i 1).isLt
  funext a
  apply Fin.ext
  match a with
  | ⟨0, _⟩ =>
    show (k.val * 12288 + (i 1).val) / 786432 = k.val / 64
    omega
  | ⟨1, _⟩ =>
    show (k.val * 12288 + (i 1).val) % 12288 = (i 1).val
    omega

/-- The zero point of row `k` is read at group `k / 64`. -/
theorem zero_index (i : S4096x12288.Idx) (k : Fin 4096) :
    idx_main_v5 (idx_main_v6 (idx_main_v8 (ridx_main_v9 i k))) = ix2 (grp k) (i 1) := by
  have hk := k.isLt
  have hi : (i 1).val < 12288 := (i 1).isLt
  funext a
  apply Fin.ext
  match a with
  | ⟨0, _⟩ =>
    show (k.val * 12288 + (i 1).val) / 786432 = k.val / 64
    omega
  | ⟨1, _⟩ =>
    show (k.val * 12288 + (i 1).val) % 12288 = (i 1).val
    omega

/-- The bias of entry `i` is read at its column. -/
theorem bias_index (i : S4096x12288.Idx) : idx_main_v10 (idx_main_v11 i) = ix1 (i 1) :=
  funext fun a => Fin.ext (by match a with | ⟨0, _⟩ => rfl)

/-- The reference's result is the dequantized product plus bias, as a function of the five arguments. -/
theorem result_eq (x : (⟨S4096x4096, .f32⟩ : BufTy).Contents (Elt Ideal)) (q : (⟨S4096x12288, .i32⟩ : BufTy).Contents (Elt Ideal))
    (s z : (⟨S64x12288, .f32⟩ : BufTy).Contents (Elt Ideal)) (b : (⟨S12288, .f32⟩ : BufTy).Contents (Elt Ideal)) :
    val_main_v12 (F := Ideal) x q s z b = out x q s z b := by
  funext i
  rw [val_main_v12_apply, val_main_v9_apply, val_main_v11_apply, val_main_v10_apply, bias_index]
  refine congrArg (· + b (ix1 (i 1))) (Finset.sum_congr rfl fun k _ => ?_)
  rw [val_main_v8_apply, val_main_v7_apply, val_main_v4_apply, val_main_v6_apply, val_main_v5_apply,
    val_main_v1_apply, val_main_v0_apply, val_main_v3_apply, val_main_v2_apply,
    lhs_index, code_index, scale_index, zero_index]
  rfl

end Cert.ReferenceIdeal.Entries

end
-- ==== Proof.lean ====
/-
  A weight-only quantized matrix product against its plain reference, over the extended reals.

  Both programs compute `out[r, n] = (∑ p, x[r, p] · (q[p, n] · s[p / 64, n] + z[p / 64, n])) + b[n]` for
  4096 × 4096 activations `x`, 4096 × 12288 integer codes `q`, one scale `s` and zero point `z` per group of 64 rows,
  and a bias `b`. The kernel walks a 4 × 12 × 8 grid: for each 1024 × 1024 output block it accumulates, over eight
  contraction tiles of 512 rows, the product of the activation tile with the dequantized weight tile in a scratch
  block that starts at zero, and at the eighth tile writes the block plus bias. The reference dequantizes the whole
  weight matrix and takes one product. The two agree because a sum over 4096 rows is the sum of its eight
  consecutive 512-row parts, addition of extended reals being commutative and associative, and because changing
  float format is the identity there; no entry needs to be finite.

  The kernel's result array is read in Proof/KernelBlocks.lean (the accumulation by induction on the grid point,
  the 48 written-back blocks tiling the result), the reference's in Proof/ReferenceEntries.lean; the function
  both equal is Proof/DequantProduct.lean's `out`. The word-level kernel and its idealization run, terminate and
  leave their arguments unchanged by their frame modules; the idealization rewrote no operation.
-/
import proofs.«154683_j68676527063117_1_alg».proof.Defs
import proofs.«154683_j68676527063117_1_alg».proof.Proof.Gen.Kernel
import proofs.«154683_j68676527063117_1_alg».proof.Proof.Gen.Kernel.Skeleton
import proofs.«154683_j68676527063117_1_alg».proof.Proof.Gen.Kernel.Launch
import proofs.«154683_j68676527063117_1_alg».proof.Proof.Gen.Kernel.Points
import proofs.«154683_j68676527063117_1_alg».proof.Proof.Gen.Kernel.Frame
import proofs.«154683_j68676527063117_1_alg».proof.Proof.Gen.KernelIdeal
import proofs.«154683_j68676527063117_1_alg».proof.Proof.Gen.KernelIdeal.Skeleton
import proofs.«154683_j68676527063117_1_alg».proof.Proof.Gen.KernelIdeal.Launch
import proofs.«154683_j68676527063117_1_alg».proof.Proof.Gen.KernelIdeal.Points
import proofs.«154683_j68676527063117_1_alg».proof.Proof.Gen.KernelIdeal.Frame
import proofs.«154683_j68676527063117_1_alg».proof.Proof.Gen.KernelIdeal.Value
import proofs.«154683_j68676527063117_1_alg».proof.Proof.Gen.ReferenceIdeal
import proofs.«154683_j68676527063117_1_alg».proof.Proof.Gen.ReferenceIdeal.Run
import proofs.«154683_j68676527063117_1_alg».proof.Proof.Gen.ReferenceIdeal.Read
import proofs.«154683_j68676527063117_1_alg».proof.Proof.Gen.Pre_finite_inputs
import proofs.«154683_j68676527063117_1_alg».proof.Proof.KernelBlocks
import proofs.«154683_j68676527063117_1_alg».proof.Proof.ReferenceEntries
import Idealize.ShloMosaic.Adequacy
import Idealize.ShloMosaic.Init

noncomputable section

namespace Cert.Proof

open Idealize.ShloMosaic Idealize.ShloMosaic.TcCoe Idealize.SL.Sem

/-- The word-level kernel runs to the end and leaves its five argument arrays as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is a straight line of host operations: it runs to the end, and none writes an argument. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the arguments, the kernel's result array and the reference's both end at the
    dequantized product plus bias of those arguments. -/
theorem algebraic : Cert.algebraic_KernelIdeal_ReferenceIdeal := by
  intro m ρ m' ρ' _ hagree
  refine ⟨fun c => Cert.KernelIdeal.Blocks.result m c, Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v12_eq, Cert.ReferenceIdeal.Entries.result_eq, (hagree c).1,
    (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
